-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1280x32x32 : Shape := ⟨4, ![64, 1280, 32, 32]⟩
abbrev S64 : Shape := ⟨1, ![64]⟩
abbrev S8 : Shape := ⟨1, ![8]⟩
abbrev S_ : Shape := ⟨0, ![]⟩

class Facts : Prop where
  bcast_S_S64x1280x32x32 : S_.BroadcastsInDim S64x1280x32x32 (![] : Fin 0 → Fin S64x1280x32x32.rank)
  reducesTo_S64x1280x32x32_S_d0_1_2_3 : S64x1280x32x32.ReducesTo [0, 1, 2, 3] S_
  h_S_ : 0 < S_.numel
  bcast_S_S8 : S_.BroadcastsInDim S8 (![] : Fin 0 → Fin S8.rank)
  reducesTo_S8_S_d0 : S8.ReducesTo [0] S_

variable [Facts]

def fn {F : FTy → Type} [FloatOps F] (main_arg0 : FVec F S64x1280x32x32 .f32) (main_arg1 : IVec S64 32) (main_arg2 : FVec F S8 .f32) : IVec S_ 1 :=
  let main_v0 : FVec F S64x1280x32x32 .f32 := Host.absf main_arg0
  let main_cst : FVec F S_ .f32 := constant S_ .f32 0x7F800000#32
  let main_v1 : FVec F S64x1280x32x32 .f32 := broadcastInDim S64x1280x32x32 ![] bcast_S_S64x1280x32x32 main_cst
  let main_v2 : IVec S64x1280x32x32 1 := cmpf .olt main_v0 main_v1
  let main_c : IVec S_ 1 := constantI S_ 1 1#1
  let main_v3 : IVec S_ 1 := (fun x v => Host.reduce IntOp.andi x v reducesTo_S64x1280x32x32_S_d0_1_2_3 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  main_v8
-- ==== Kernel.lean ====
abbrev S64x1280x32x32 : Shape := ⟨4, ![64, 1280, 32, 32]⟩
abbrev S64 : Shape := ⟨1, ![64]⟩
abbrev S8 : Shape := ⟨1, ![8]⟩
abbrev S_ : Shape := ⟨0, ![]⟩
abbrev S1 : Shape := ⟨1, ![1]⟩
abbrev S64x1 : Shape := ⟨2, ![64, 1]⟩
abbrev S64x1280x1024 : Shape := ⟨3, ![64, 1280, 1024]⟩
abbrev S64x1280 : Shape := ⟨2, ![64, 1280]⟩
abbrev S32x128x1024 : Shape := ⟨3, ![32, 128, 1024]⟩
abbrev S32x1 : Shape := ⟨2, ![32, 1]⟩
abbrev S32x128 : Shape := ⟨2, ![32, 128]⟩

abbrev nBuf : Space → Nat
  | .hbm => 28
  | .vmem => 6
  | .smem => 0
  | _ => 0

abbrev bufTy : (tb : Table) → Fin (tcTables nBuf tb) → BufTy
  | .hbm, ⟨0, _⟩ => ⟨S64x1280x32x32, .f32⟩
  | .hbm, ⟨1, _⟩ => ⟨S64, .i32⟩
  | .hbm, ⟨2, _⟩ => ⟨S8, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S_, .f32⟩
  | .hbm, ⟨13, _⟩ => ⟨S1, .f32⟩
  | .hbm, ⟨14, _⟩ => ⟨S8, .f32⟩
  | .hbm, ⟨15, _⟩ => ⟨S8, .f32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S_, .i32⟩
  | .hbm, ⟨20, _⟩ => ⟨S64, .i32⟩
  | .hbm, ⟨21, _⟩ => ⟨S64, .i32⟩
  | .hbm, ⟨22, _⟩ => ⟨S64, .i32⟩
  | .hbm, ⟨23, _⟩ => ⟨S64x1, .i32⟩
  | .hbm, ⟨24, _⟩ => ⟨S64, .f32⟩
  | .hbm, ⟨25, _⟩ => ⟨S64x1, .f32⟩
  | .hbm, ⟨26, _⟩ => ⟨S64x1280x1024, .f32⟩
  | .hbm, ⟨27, _⟩ => ⟨S64x1280, .f32⟩
  | .local _ .vmem, ⟨0, _⟩ => ⟨S32x128x1024, .f32⟩
  | .local _ .vmem, ⟨1, _⟩ => ⟨S32x128x1024, .f32⟩
  | .local _ .vmem, ⟨2, _⟩ => ⟨S32x1, .f32⟩
  | .local _ .vmem, ⟨3, _⟩ => ⟨S32x1, .f32⟩
  | .local _ .vmem, ⟨4, _⟩ => ⟨S32x128, .f32⟩
  | .local _ .vmem, ⟨5, _⟩ => ⟨S32x128, .f32⟩
  | _, _ => ⟨S64x1280x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S8_S_d0 : S8.ReducesTo [0] S_
  h_S_ : 0 < S_.numel
  bcast_S_S1 : S_.BroadcastsInDim S1 (![] : Fin 0 → Fin S1.rank)
  bcast_S1_S8_0 : S1.BroadcastsInDim S8 (![0] : Fin 1 → Fin S8.rank)
  bcast_S_S64 : S_.BroadcastsInDim S64 (![] : Fin 0 → Fin S64.rank)
  bcast_S64_S64x1_0 : S64.BroadcastsInDim S64x1 (![0] : Fin 1 → Fin S64x1.rank)
  shapeCasts_S64x1280x32x32_S64x1280x1024 : S64x1280x32x32.ShapeCasts S64x1280x1024
  inb_S32x128x1024_S32x128x1024_0_0_0 : ∀ a, (![0, 0, 0] : Fin 3 → Nat) a + S32x128x1024.size a ≤ S32x128x1024.size a
  h_S32x128x1024 : 0 < S32x128x1024.numel
  shapeCasts_S32x128x1024_S32x128x1024 : S32x128x1024.ShapeCasts S32x128x1024
  reduces_S32x128x1024_S32x128 : S32x128x1024.Reduces [2] S32x128
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S32x128_S32x128_0_0 : ∀ a, (![0, 0] : Fin 2 → Nat) a + S32x128.size a ≤ S32x128.size a
  h_S32x128 : 0 < S32x128.numel
  gather_S8_S64x1_S64_n_0_n_n_0_1_1_wf : GatherDims.WF S8 S64x1 S64 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x1024.size a ≤ S64x1280x1024.size a
  hwx0_0 : ∀ i : grid0.Coords, EltTy.bits .f32 = 32 ∨ (Rect.block (s := S64x1280x1024) S32x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S64x1.size a
  hwx0_1 : ∀ i : grid0.Coords, EltTy.bits .f32 = 32 ∨ (Rect.block (s := S64x1) S32x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x1280.size a
  hwx0_2 : ∀ i : grid0.Coords, EltTy.bits .f32 = 32 ∨ (Rect.block (s := S64x1280) S32x128.size (cc0_transform_2 i) (hinb0_2 i)).WholeWords (EltTy.packing .f32)

variable [Facts₀]

def gather_S8_S64x1_S64_n_0_n_n_0_1_1 : GatherDims S8 S64x1 S64 where
  offsetDims := []
  collapsedSliceDims := [0]
  operandBatchingDims := []
  startIndicesBatchingDims := []
  startIndexMap := [0]
  indexVectorDim := 1
  sliceSizes := ![1]
  wf := gather_S8_S64x1_S64_n_0_n_n_0_1_1_wf

abbrev win0_0 : Pipeline.Window sig grid0 :=
  Pipeline.Window.ofSpec (Memref.whole main_v18) S32x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1280x32x32 : Shape := ⟨4, ![64, 1280, 32, 32]⟩
abbrev S64 : Shape := ⟨1, ![64]⟩
abbrev S8 : Shape := ⟨1, ![8]⟩
abbrev S_ : Shape := ⟨0, ![]⟩
abbrev S64x1280 : Shape := ⟨2, ![64, 1280]⟩
abbrev S1 : Shape := ⟨1, ![1]⟩
abbrev S64x1 : Shape := ⟨2, ![64, 1]⟩

abbrev nBuf : Space → Nat
  | .hbm => 33
  | .vmem => 0
  | .smem => 0
  | _ => 0

abbrev bufTy : (tb : Table) → Fin (tcTables nBuf tb) → BufTy
  | .hbm, ⟨0, _⟩ => ⟨S64x1280x32x32, .f32⟩
  | .hbm, ⟨1, _⟩ => ⟨S64, .i32⟩
  | .hbm, ⟨2, _⟩ => ⟨S8, .f32⟩
  | .hbm, ⟨3, _⟩ => ⟨S_, .f32⟩
  | .hbm, ⟨4, _⟩ => ⟨S64x1280, .f32⟩
  | .hbm, ⟨5, _⟩ => ⟨S_, .f32⟩
  | .hbm, ⟨6, _⟩ => ⟨S64x1280, .f32⟩
  | .hbm, ⟨7, _⟩ => ⟨S64x1280, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S_, .f32⟩
  | .hbm, ⟨18, _⟩ => ⟨S1, .f32⟩
  | .hbm, ⟨19, _⟩ => ⟨S8, .f32⟩
  | .hbm, ⟨20, _⟩ => ⟨S8, .f32⟩
  | .hbm, ⟨21, _⟩ => ⟨S_, .i32⟩
  | .hbm, ⟨22, _⟩ => ⟨S64, .i32⟩
  | .hbm, ⟨23, _⟩ => ⟨S64, .i1⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S64, .i32⟩
  | .hbm, ⟨28, _⟩ => ⟨S64x1, .i32⟩
  | .hbm, ⟨29, _⟩ => ⟨S64, .f32⟩
  | .hbm, ⟨30, _⟩ => ⟨S64x1, .f32⟩
  | .hbm, ⟨31, _⟩ => ⟨S64x1280, .f32⟩
  | .hbm, ⟨32, _⟩ => ⟨S64x1280, .f32⟩
  | _, _ => ⟨S64x1280x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S64x1280x32x32_S64x1280_d2_3 : S64x1280x32x32.ReducesTo [2, 3] S64x1280
  h_S_ : 0 < S_.numel
  bcast_S_S64x1280 : S_.BroadcastsInDim S64x1280 (![] : Fin 0 → Fin S64x1280.rank)
  reducesTo_S8_S_d0 : S8.ReducesTo [0] S_
  bcast_S_S1 : S_.BroadcastsInDim S1 (![] : Fin 0 → Fin S1.rank)
  bcast_S1_S8_0 : S1.BroadcastsInDim S8 (![0] : Fin 1 → Fin S8.rank)
  bcast_S_S64 : S_.BroadcastsInDim S64 (![] : Fin 0 → Fin S64.rank)
  bcast_S64_S64x1_0 : S64.BroadcastsInDim S64x1 (![0] : Fin 1 → Fin S64x1.rank)
  bcast_S64x1_S64x1280_0_1 : S64x1.BroadcastsInDim S64x1280 (![0, 1] : Fin 2 → Fin S64x1280.rank)
  gather_S8_S64x1_S64_n_0_n_n_0_1_1_wf : GatherDims.WF S8 S64x1 S64 [] [0] [] [0] [] 1 ![1]

variable [Facts₀]

def gather_S8_S64x1_S64_n_0_n_n_0_1_1 : GatherDims S8 S64x1 S64 where
  offsetDims := []
  collapsedSliceDims := [0]
  operandBatchingDims := []
  startIndicesBatchingDims := []
  startIndexMap := [0]
  indexVectorDim := 1
  sliceSizes := ![1]
  wf := gather_S8_S64x1_S64_n_0_n_n_0_1_1_wf

class Facts : Prop extends Facts₀ where

variable [Facts]
-- ==== Proof.LibFlattenSum.lean ====
/-
  Summing a rank-4 array over its last two axes is summing over the one axis they flatten to.

  For extents A, B, H, W, position k of the flattened axis of length H·W stands for the pair (k / W, k % W): that is a
  bijection between the positions below H·W and the pairs of coordinates, so
    • the indices of an [A, B, H, W] array that a reduction over axes 2 and 3 sends to (a, b) are exactly the
      (a, b, k / W, k % W), k below H·W, and a sum over them is the sum over k (`sum_filter_drop_last2`);
    • hence the host's float sum over axes 2 and 3, on the extended reals, is the initial value plus that sum over k
      (`hostReduceAdd_last2`);
    • the row-major reshape [A, B, H, W] → [A, B, H·W] read at (a, b, k) is the array at (a, b, k / W, k % W)
      (`shapeCast_flatten_last2`), both indices having the row-major position ((a·B + b)·H + k / W)·W + k % W.
  Everything is stated over symbolic extents.
-/
import Idealize.ShloMosaic.PureOps.Ideal.Laws
import Idealize.ShloMosaic.Lib.ValueIdx
import Idealize.ShloMosaic.Lib.Pipeline.Value

noncomputable section

open scoped BigOperators

namespace Cert.LibFlattenSum

open Idealize.ShloMosaic Idealize.ShloMosaic.ValueIdx

variable {A B H W : Nat}

/-- A position below H·W leaves a quotient by W below H. -/
theorem div_lt_of_lt_mul {k : Nat} (hk : k < H * W) : k / W < H :=
  Nat.div_lt_of_lt_mul (by rwa [Nat.mul_comm] at hk)

/-- A position below H·W leaves a remainder by W below W (W cannot be zero). -/
theorem mod_lt_of_lt_mul {k : Nat} (hk : k < H * W) : k % W < W := by
  rcases Nat.eq_zero_or_pos W with h | h
  · subst h; simp at hk
  · exact Nat.mod_lt _ h

/-- The index (a, b, k / W, k % W) of an [A, B, H, W] array: position k of the flattened last two axes. -/
abbrev unflat (a : Fin A) (b : Fin B) (k : Fin (H * W)) : (⟨4, ![A, B, H, W]⟩ : Shape).Idx :=
  ix4 a b ⟨k.val / W, div_lt_of_lt_mul k.isLt⟩ ⟨k.val % W, mod_lt_of_lt_mul k.isLt⟩

/-- The flattened position W·h + w of the pair (h, w). -/
abbrev flat (h : Fin H) (w : Fin W) : Fin (H * W) :=
  ⟨W * h.val + w.val, by
    have h1 := h.isLt; have h2 := w.isLt
    calc W * h.val + w.val < W * h.val + W := by omega
      _ = W * (h.val + 1) := by rw [Nat.mul_add, Nat.mul_one]
      _ ≤ W * H := Nat.mul_le_mul_left _ (by omega)
      _ = H * W := Nat.mul_comm _ _⟩

/-- Flattening a pair and splitting the position again gives the pair back. -/
theorem unflat_flat (i : (⟨4, ![A, B, H, W]⟩ : Shape).Idx) (a : Fin A) (b : Fin B) (ha : a.val = (i 0).val)
    (hb : b.val = (i 1).val) : unflat a b (flat (i 2) (i 3)) = i := by
  have hW : 0 < W := Nat.pos_of_ne_zero fun h => by have := (i 3).isLt; simp only [h] at this; exact absurd this (Nat.not_lt_zero _)
  have h3 : (i 3).val < W := (i 3).isLt
  funext e
  apply Fin.ext
  match e with
  | ⟨0, _⟩ => exact ha
  | ⟨1, _⟩ => exact hb
  | ⟨2, _⟩ =>
    show (W * (i 2).val + (i 3).val) / W = (i 2).val
    rw [Nat.mul_add_div hW, Nat.div_eq_of_lt h3, Nat.add_zero]
  | ⟨3, _⟩ =>
    show (W * (i 2).val + (i 3).val) % W = (i 3).val
    rw [Nat.mul_add_mod, Nat.mod_eq_of_lt h3]

/-- Splitting a position and flattening the pair again gives the position back. -/
theorem flat_unflat (a : Fin A) (b : Fin B) (k : Fin (H * W)) :
    flat ((unflat a b k) 2) ((unflat a b k) 3) = k :=
  Fin.ext (Nat.div_add_mod k.val W)

/-- A reduction over axes 2 and 3 keeps coordinates 0 and 1. -/
theorem drop_last2_val0 (h' : (⟨4, ![A, B, H, W]⟩ : Shape).ReducesTo [2, 3] ⟨2, ![A, B]⟩)
    (i : (⟨4, ![A, B, H, W]⟩ : Shape).Idx) : (h'.drop i 0).val = (i 0).val := rfl
theorem drop_last2_val1 (h' : (⟨4, ![A, B, H, W]⟩ : Shape).ReducesTo [2, 3] ⟨2, ![A, B]⟩)
    (i : (⟨4, ![A, B, H, W]⟩ : Shape).Idx) : (h'.drop i 1).val = (i 1).val := rfl

/-- The indices a reduction over axes 2 and 3 sends to (a, b) are the (a, b, k / W, k % W): a sum over them is the sum
    over the flattened positions k. -/
theorem sum_filter_drop_last2 {α : Type} [AddCommMonoid α]
    (h' : (⟨4, ![A, B, H, W]⟩ : Shape).ReducesTo [2, 3] ⟨2, ![A, B]⟩)
    (x : (⟨4, ![A, B, H, W]⟩ : Shape).Idx → α) (j : (⟨2, ![A, B]⟩ : Shape).Idx) :
    ∑ i ∈ Finset.univ.filter (fun i => h'.drop i = j), x i = ∑ k : Fin (H * W), x (unflat (j 0) (j 1) k) := by
  have hdrop : ∀ i : (⟨4, ![A, B, H, W]⟩ : Shape).Idx, h'.drop i = j → (j 0).val = (i 0).val ∧ (j 1).val = (i 1).val :=
    fun i hi => ⟨by rw [← hi]; exact drop_last2_val0 h' i, by rw [← hi]; exact drop_last2_val1 h' i⟩
  refine Finset.sum_nbij' (fun i => flat (i 2) (i 3)) (fun k => unflat (j 0) (j 1) k) ?_ ?_ ?_ ?_ ?_
  · intro i _; exact Finset.mem_univ _
  · intro k _
    refine Finset.mem_filter.2 ⟨Finset.mem_univ _, funext fun b => Fin.ext ?_⟩
    match b with
    | ⟨0, _⟩ => exact drop_last2_val0 h' _
    | ⟨1, _⟩ => exact drop_last2_val1 h' _
  · intro i hi
    obtain ⟨e0, e1⟩ := hdrop i (Finset.mem_filter.1 hi).2
    exact unflat_flat i _ _ e0 e1
  · intro k _; exact flat_unflat _ _ k
  · intro i hi
    obtain ⟨e0, e1⟩ := hdrop i (Finset.mem_filter.1 hi).2
    exact congrArg x (unflat_flat i _ _ e0 e1).symm

/-- The host's float sum of an [A, B, H, W] array over axes 2 and 3, on the extended reals, at (a, b): the initial
    value plus the sum over the flattened positions k of the array at (a, b, k / W, k % W). -/
theorem hostReduceAdd_last2 (h' : (⟨4, ![A, B, H, W]⟩ : Shape).ReducesTo [2, 3] ⟨2, ![A, B]⟩)
    (x : (⟨4, ![A, B, H, W]⟩ : Shape).Idx → EReal) (init : EReal) (j : (⟨2, ![A, B]⟩ : Shape).Idx) :
    Ideal.hostReduceAdd h' x init j = init + ∑ k : Fin (H * W), x (unflat (j 0) (j 1) k) := by
  unfold Ideal.hostReduceAdd
  rw [sum_filter_drop_last2]

/-- The row-major reshape [A, B, H, W] → [A, B, H·W] read at (a, b, k) is the array at (a, b, k / W, k % W). -/
theorem shapeCast_flatten_last2 {α : Type} (x : (⟨4, ![A, B, H, W]⟩ : Shape).Idx → α)
    (h : (⟨4, ![A, B, H, W]⟩ : Shape).ShapeCasts ⟨3, ![A, B, H * W]⟩) (a : Fin A) (b : Fin B) (k : Fin (H * W)) :
    shapeCast ⟨3, ![A, B, H * W]⟩ x h (ix3 a b k) = x (unflat a b k) := by
  refine shapeCast_apply x h _ _ ?_
  rw [Shape.rowMajor_val_four, Shape.rowMajor_val_three]
  show ((a.val * B + b.val) * H + k.val / W) * W + k.val % W = (a.val * B + b.val) * (H * W) + k.val
  have hk := Nat.div_add_mod k.val W
  generalize k.val / W = q at hk ⊢
  generalize k.val % W = r at hk ⊢
  rw [← hk]; ring

end Cert.LibFlattenSum

end
-- ==== Proof.PoolSpec.lean ====
/-
  What both programs compute, as one function of the input array and of the per-sample scale column.

  For x : [64, 1280, 32, 32] and a column s : [64, 1] of scales, the result at (b, c) is
      ( Σ_{k < 1024} x(b, c, k / 32, k % 32) ) · (1/1024) · s(b, 0):
  the mean of the 32×32 plane of sample b and channel c (its 1024 entries listed in row-major order), times the scale of
  sample b. One side multiplies the sum by the float 2⁻¹⁰, whose value is exactly 1/1024; the other divides it by the float
  1024. On the extended reals a quotient by a non-zero real r is the product with 1/r at every argument, the infinities
  included, so the two agree everywhere and no finiteness of x is needed.
-/
import Idealize.ShloMosaic.PureOps.Ideal
import Idealize.ShloMosaic.Lib.ValueIdx
import proofs.«114074_j30305289241063_2_alg».proof.Proof.LibFlattenSum

noncomputable section

open scoped BigOperators

namespace Cert.PoolSpec

open Idealize.ShloMosaic Idealize.ShloMosaic.ValueIdx Cert.LibFlattenSum

/-- The float word of 2⁻¹⁰ denotes the real 1/1024. -/
theorem ofBits_inv1024 : Ideal.ofBits .f32 0x3A800000#32 = ((1 / 1024 : ℝ) : EReal) := by
  simp [Ideal.ofBits, Ideal.ieee, -EReal.coe_mul]; norm_num

/-- The float word of 1024.0 denotes the real 1024. -/
theorem ofBits_1024 : Ideal.ofBits .f32 0x44800000#32 = ((1024 : ℝ) : EReal) := by
  simp [Ideal.ofBits, Ideal.ieee, -EReal.coe_mul]; norm_num

/-- Dividing by the float 1024 is multiplying by 1/1024, at every extended real. -/
theorem div_1024 (S : EReal) : Ideal.div S (Ideal.ofBits .f32 0x44800000#32) = S * ((1 / 1024 : ℝ) : EReal) := by
  rw [ofBits_1024, Ideal.div_coe (by norm_num : (1024 : ℝ) ≠ 0)]

/-- The mean over each 32×32 plane, times the sample's scale. -/
def pooled (x : (⟨4, ![64, 1280, 32, 32]⟩ : Shape).Idx → EReal) (s : (⟨2, ![64, 1]⟩ : Shape).Idx → EReal) :
    (⟨2, ![64, 1280]⟩ : Shape).Idx → EReal :=
  fun i => ((∑ k : Fin (32 * 32), x (unflat (A := 64) (B := 1280) (H := 32) (W := 32) (i 0) (i 1) k))
    * ((1 / 1024 : ℝ) : EReal)) * s (ix2 (i 0) (0 : Fin 1))

end Cert.PoolSpec

end
-- ==== Proof.PoolReference.lean ====
/-
  The reference computes the pooled, scaled array.

  Its last operation multiplies, entry by entry, the quotient by 1024 of the sum of x over axes 2 and 3 (started from the
  float zero) with the scale column stretched over the 1280 channels. At (b, c) that is
  (0 + Σ_k x(b, c, k / 32, k % 32)) / 1024 · s(b, 0), where s is the stage that gathers the softmax weights; the quotient
  by 1024 is the product with 1/1024. The scale column is left as the stage it is: the other side computes it by the same
  operations.
-/
import proofs.«114074_j30305289241063_2_alg».proof.Proof.Gen.ReferenceIdeal.Read
import proofs.«114074_j30305289241063_2_alg».proof.Proof.PoolSpec

noncomputable section

open scoped BigOperators

namespace Cert.PoolReference

open Idealize.ShloMosaic Idealize.ShloMosaic.ValueIdx Cert.LibFlattenSum Cert.PoolSpec
open Cert.ReferenceIdeal Cert.ReferenceIdeal.Read

/-- The sum stage at (b, c): the sum over the 1024 entries of the plane (the initial value is the float zero). -/
theorem sum_stage_apply (x0 : (⟨S64x1280x32x32, .f32⟩ : BufTy).Contents (Elt Ideal)) (i : S64x1280.Idx) :
    val_main_v0 (F := Ideal) x0 i
      = ∑ k : Fin (32 * 32), x0 (unflat (A := 64) (B := 1280) (H := 32) (W := 32) (i 0) (i 1) k) := by
  unfold val_main_v0
  simp only [Host.reduceAdd, Ideal.hostReduceAdd_def]
  refine (hostReduceAdd_last2 (A := 64) (B := 1280) (H := 32) (W := 32) _ x0 _ i).trans ?_
  rw [val_main_cst_apply, Ideal.ofBits_def, Ideal.ofBits_zero_f32, zero_add]

/-- The reference's result is the pooled array of x and of its own scale column. -/
theorem result_eq (x0 : (⟨S64x1280x32x32, .f32⟩ : BufTy).Contents (Elt Ideal))
    (x1 : (⟨S64, .i32⟩ : BufTy).Contents (Elt Ideal)) (x2 : (⟨S8, .f32⟩ : BufTy).Contents (Elt Ideal)) :
    val_main_v22 (F := Ideal) x0 x1 x2 = pooled x0 (val_main_v20 (F := Ideal) x1 x2) := by
  funext i
  have hs : idx_main_v21 i = ix2 (i 0) (0 : Fin 1) :=
    funext fun a => Fin.ext (by match a with | ⟨0, _⟩ => rfl | ⟨1, _⟩ => rfl)
  rw [val_main_v22_apply, val_main_v2_apply, val_main_v21_apply, val_main_v1_apply, val_main_cst_0_apply,
    sum_stage_apply, hs]
  simp only [Ideal.hostDivf_def, Ideal.mulf_def, Ideal.ofBits_def, div_1024]
  rfl

end Cert.PoolReference

end
-- ==== Proof.PoolBlock.lean ====
/-
  What one grid point leaves in its output block, entry by entry.

  The body loads a [32, 128, 1024] block of the flattened input and a [32, 1] block of the scale column, sums the first
  over its last axis, multiplies by the float 2⁻¹⁰ and by the scale column stretched over the 128 lanes, and stores the
  [32, 128] result whole. So entry (r, j) of the block it leaves is
      ( Σ_{k < 1024} X(r, j, k) ) · (1/1024) · S(r, 0)
  for X, S the two loaded blocks (a lane sum at the exact values is the finite sum over the lane coordinate; 2⁻¹⁰ is the
  real 1/1024).
-/
import proofs.«114074_j30305289241063_2_alg».proof.Proof.Gen.KernelIdeal.Value
import proofs.«114074_j30305289241063_2_alg».proof.Proof.PoolSpec
import Idealize.ShloMosaic.PureOps.Ideal.Laws

noncomputable section

open scoped BigOperators

namespace Cert.PoolBlock

open Idealize.ShloMosaic Idealize.ShloMosaic.ValueIdx Cert.PoolSpec
open Cert.KernelIdeal Cert.KernelIdeal.Gen Cert.KernelIdeal.Value

theorem hz2 : (![0, 0] : Fin 2 → Nat) = fun _ => 0 := funext fun a => by fin_cases a <;> rfl
theorem hz3 : (![0, 0, 0] : Fin 3 → Nat) = fun _ => 0 := funext fun a => by fin_cases a <;> rfl

/-- The lane sum of a [32, 128, 1024] block at (r, j) is the sum over the 1024 lane coordinates. -/
theorem lane_sum_apply (X : Vec Ideal S32x128x1024 .f32) (r : Fin 32) (j : Fin 128) :
    multiReduction (F := Ideal) .add [2] S32x128 (shapeCast S32x128x1024 X shapeCasts_S32x128x1024_S32x128x1024)
        0x00000000#32 reduces_S32x128x1024_S32x128 (.inl rfl) rfl (ix2 r j)
      = ∑ k : Fin 1024, X (ix3 r j k) := by
  refine (Ideal.multiReduction_add_single _ 0x00000000#32 reduces_S32x128x1024_S32x128 (.inl rfl) rfl (ix2 r j)).trans ?_
  refine Finset.sum_congr rfl fun k _ => ?_
  rw [shapeCast_self]
  exact congrArg X (funext fun a => Fin.ext (by match a with | ⟨0, _⟩ => rfl | ⟨1, _⟩ => rfl | ⟨2, _⟩ => rfl))

/-- Entry (r, j) of the block the body's one store leaves, from the two loaded blocks. -/
theorem stored_apply (X : Vec Ideal S32x128x1024 .f32) (S : Vec Ideal S32x1 .f32) (r : Fin 32) (j : Fin 128) :
    out0_2 (F := Ideal) X S (ix2 r j)
      = ((∑ k : Fin 1024, X (ix3 r j k)) * ((1 / 1024 : ℝ) : EReal)) * S (ix2 r (0 : Fin 1)) := by
  unfold out0_2
  refine (canon2_eq (F := Ideal) (View.ld X r0_0) (View.ld S r0_1) (ix2 r j)).trans ?_
  simp only [View.ld_unit_zero (S := S32x128x1024) hz3, View.ld_unit_zero (S := S32x1) hz2]
  have e0 : ix2_0 (ix2 r j) = ix2 r j :=
    funext fun a => Fin.ext (by match a with | ⟨0, _⟩ => rfl | ⟨1, _⟩ => rfl)
  have e1 : ix2_1 (ix2 r j) = ix2 r (0 : Fin 1) :=
    funext fun a => Fin.ext (by match a with | ⟨0, _⟩ => rfl | ⟨1, _⟩ => rfl)
  show FloatOps.mulf (FloatOps.mulf (multiReduction (F := Ideal) .add [2] S32x128 _ _ _ _ _ (ix2_0 (ix2 r j))) _)
      (S (ix2_1 (ix2 r j))) = _
  rw [e0, e1, lane_sum_apply X r j]
  show (_ * Ideal.ofBits .f32 0x3A800000#32) * _ = _
  rw [ofBits_inv1024]

end Cert.PoolBlock

end
-- ==== Proof.PoolWindows.lean ====
/-
  The two arrays the region reads, and each grid point's blocks of them.

  Before the region the host flattens x : [64, 1280, 32, 32] row-major into [64, 1280, 1024] and computes the scale
  column [64, 1] — the softmax of the eight weights gathered at each sample's (wrapped) index — by the very operations
  the reference uses for its own scale column, in the same order. The grid is 2 × 10: point (p, q) reads rows
  32p … 32p + 31 and channels 128q … 128q + 127 of the flattened input (all 1024 lanes), rows 32p … 32p + 31 of the scale
  column, and writes the same rows and channels of the result. So entry (r, j, k) of the point's input block is
  x(32p + r, 128q + j, k / 32, k % 32), and entry (r, 0) of its scale block is the scale of sample 32p + r.
-/
import proofs.«114074_j30305289241063_2_alg».proof.Proof.Gen.KernelIdeal.Value
import proofs.«114074_j30305289241063_2_alg».proof.Proof.Gen.ReferenceIdeal.Read
import proofs.«114074_j30305289241063_2_alg».proof.Proof.LibFlattenSum
import Idealize.ShloMosaic.Lib.StableHlo.Run

noncomputable section

namespace Cert.PoolWindows

open Idealize.ShloMosaic Idealize.ShloMosaic.TcCoe Idealize.SL.Sem Idealize.ShloMosaic.StableHlo
open Idealize.ShloMosaic.ValueIdx Cert.LibFlattenSum
open Cert.KernelIdeal Cert.KernelIdeal.Gen

variable (m : (ℓ : Loc nD τ sig) → Buf (Elt Ideal) ℓ)

set_option maxHeartbeats 1000000 in
/-- The flattened input as the region finds it: the row-major reshape of the argument. -/
theorem entry_flat (c : Dev nD) :
    (V m c main_v18 : S64x1280x1024.Idx → EReal)
      = shapeCast S64x1280x1024 (m ((c : Thread nD τ).loc main_arg0) : S64x1280x32x32.Idx → EReal)
          shapeCasts_S64x1280x32x32_S64x1280x1024 := by
  dsimp only [Gen.V, Gen.hostOps0]; after_results_simp; rfl

set_option maxHeartbeats 1000000 in
/-- The scale column as the region finds it: the reference's own scale stage of the same two arguments. -/
theorem entry_scale (c : Dev nD) :
    (V m c main_v17 : S64x1.Idx → EReal)
      = Cert.ReferenceIdeal.Read.val_main_v20 (F := Ideal) (m ((c : Thread nD τ).loc main_arg1))
          (m ((c : Thread nD τ).loc main_arg2)) := by
  dsimp only [Gen.V, Gen.hostOps0]; after_results_simp; rfl

/-- The printed index maps over the 20 grid points: the input block moves with the output block on the first two axes
    and stays at 0 on the lane axis, the scale block moves with the output's rows, and the output's block indices range
    over 2 × 10. -/
theorem idx_facts : ∀ t : Fin cfg0.N,
    win0_0.index t (0 : Fin 3) = win0_2.index t (0 : Fin 2)
    ∧ win0_0.index t (1 : Fin 3) = win0_2.index t (1 : Fin 2)
    ∧ win0_0.index t (2 : Fin 3) = 0
    ∧ win0_1.index t (0 : Fin 2) = win0_2.index t (0 : Fin 2)
    ∧ win0_1.index t (1 : Fin 2) = 0
    ∧ win0_2.index t (0 : Fin 2) ≤ 1 ∧ win0_2.index t (1 : Fin 2) ≤ 9 :=
  (by decide +kernel : ∀ t : Fin grid0.N, _)

/-- Every pair of block indices in 2 × 10 is some point's. -/
theorem idx_onto : ∀ (q0 : Fin 2) (q1 : Fin 10), ∃ t : Fin cfg0.N, win0_2.index t = ![q0.val, q1.val] :=
  (by decide +kernel : ∀ (q0 : Fin 2) (q1 : Fin 10), ∃ t : Fin grid0.N, win0_2.index t = ![q0.val, q1.val])

/-- Entry (r, j, k) of point t's input block is x at (row, channel, k / 32, k % 32), for the row and channel the
    output block's indices give. -/
theorem xblock_apply (c : Dev nD) (t : Fin cfg0.N) (r : Fin 32) (j : Fin 128) (k : Fin 1024) (b : Fin 64) (ch : Fin 1280)
    (hb : b.val = win0_2.index t (0 : Fin 2) * 32 + r.val) (hc : ch.val = win0_2.index t (1 : Fin 2) * 128 + j.val) :
    (iblk m c 0 t : Vec Ideal S32x128x1024 .f32) (ix3 r j k)
      = (m ((c : Thread nD τ).loc main_arg0) : S64x1280x32x32.Idx → EReal)
          (unflat (A := 64) (B := 1280) (H := 32) (W := 32) b ch k) := by
  obtain ⟨e0, e1, e2, -, -, -, -⟩ := idx_facts t
  unfold iblk
  rw [View.read_apply]
  show (V m c main_v18 : S64x1280x1024.Idx → EReal) _ = _
  rw [entry_flat]
  refine Eq.trans (congrArg _ ?_) (shapeCast_flatten_last2 (A := 64) (B := 1280) (H := 32) (W := 32) _ _ b ch k)
  funext a
  apply Fin.ext
  match a with
  | ⟨0, _⟩ => show win0_0.index t (0 : Fin 3) * 32 + 1 * r.val = b.val; omega
  | ⟨1, _⟩ => show win0_0.index t (1 : Fin 3) * 128 + 1 * j.val = ch.val; omega
  | ⟨2, _⟩ => show win0_0.index t (2 : Fin 3) * 1024 + 1 * k.val = k.val; omega

/-- Entry (r, 0) of point t's scale block is the scale column at (row, 0). -/
theorem sblock_apply (c : Dev nD) (t : Fin cfg0.N) (r : Fin 32) (b : Fin 64)
    (hb : b.val = win0_2.index t (0 : Fin 2) * 32 + r.val) :
    (iblk m c 1 t : Vec Ideal S32x1 .f32) (ix2 r (0 : Fin 1))
      = (V m c main_v17 : S64x1.Idx → EReal) (ix2 b (0 : Fin 1)) := by
  obtain ⟨-, -, -, e3, e4, -, -⟩ := idx_facts t
  unfold iblk
  rw [View.read_apply]
  show (V m c main_v17 : S64x1.Idx → EReal) _ = _
  refine congrArg _ ?_
  funext a
  apply Fin.ext
  match a with
  | ⟨0, _⟩ => show win0_1.index t (0 : Fin 2) * 32 + 1 * r.val = b.val; omega
  | ⟨1, _⟩ => show win0_1.index t (1 : Fin 2) * 1 + 1 * 0 = 0; omega

end Cert.PoolWindows

end
-- ==== Proof.PoolKernel.lean ====
/-
  The kernel's result array is the pooled, scaled array.

  Grid point (p, q) writes back the [32, 128] block of rows 32p … 32p + 31 and channels 128q … 128q + 127. Entry (r, j)
  of what it writes is (Σ_k X(r, j, k)) · (1/1024) · S(r, 0) of its two input blocks, and X(r, j, k) is
  x(32p + r, 128q + j, k / 32, k % 32), S(r, 0) the scale of sample 32p + r: so the point writes exactly its block of
  the pooled array. The 2 × 10 blocks cover [64, 1280] (row b lies in block b / 32, channel c in block c / 128), hence
  the array after the run is the pooled array everywhere.
-/
import proofs.«114074_j30305289241063_2_alg».proof.Proof.Gen.KernelIdeal.Value
import proofs.«114074_j30305289241063_2_alg».proof.Proof.PoolSpec
import proofs.«114074_j30305289241063_2_alg».proof.Proof.PoolBlock
import proofs.«114074_j30305289241063_2_alg».proof.Proof.PoolWindows
import Idealize.ShloMosaic.Lib.Pipeline.Value

noncomputable section

open scoped BigOperators

namespace Cert.PoolKernel

open Idealize.ShloMosaic Idealize.ShloMosaic.TcCoe Idealize.SL.Sem
open Idealize.ShloMosaic.Pipeline (Dat)
open Idealize.ShloMosaic.ValueIdx Cert.LibFlattenSum Cert.PoolSpec Cert.PoolBlock Cert.PoolWindows
open Cert.KernelIdeal Cert.KernelIdeal.Gen Cert.KernelIdeal.Value

variable (m : (ℓ : Loc nD τ sig) → Buf (Elt Ideal) ℓ) (ρ : Dev nD → PrngReg)

/-- The pooled array of the input argument and of the scale column computed from the other two arguments. -/
abbrev result (c : Dev nD) : Buf (Elt Ideal) ((c : Thread nD τ).loc main_v19) :=
  pooled (m ((c : Thread nD τ).loc main_arg0))
    (Cert.ReferenceIdeal.Read.val_main_v20 (F := Ideal) (m ((c : Thread nD τ).loc main_arg1))
      (m ((c : Thread nD τ).loc main_arg2)))

/-- The pooled array read at (b, c). -/
theorem pooled_apply (x : (⟨4, ![64, 1280, 32, 32]⟩ : Shape).Idx → EReal) (s : (⟨2, ![64, 1]⟩ : Shape).Idx → EReal)
    (b : Fin 64) (ch : Fin 1280) :
    pooled x s (ix2 b ch)
      = ((∑ k : Fin (32 * 32), x (unflat (A := 64) (B := 1280) (H := 32) (W := 32) b ch k)) * ((1 / 1024 : ℝ) : EReal))
        * s (ix2 b (0 : Fin 1)) := rfl

/-- Entry (r, j) of what point t leaves in its output block is the pooled array at the row and channel under it. -/
theorem stored_eq (c : Dev nD) (t : Fin cfg0.N) (r : Fin 32) (j : Fin 128) (b : Fin 64) (ch : Fin 1280)
    (hb : b.val = win0_2.index t (0 : Fin 2) * 32 + r.val) (hc : ch.val = win0_2.index t (1 : Fin 2) * 128 + j.val) :
    out0_2 (F := Ideal) (iblk m c 0 t) (iblk m c 1 t) (ix2 r j) = (result m c : S64x1280.Idx → EReal) (ix2 b ch) := by
  refine (stored_apply (iblk m c 0 t) (iblk m c 1 t) r j).trans ?_
  refine Eq.trans ?_ (pooled_apply _ _ b ch).symm
  rw [sblock_apply m c t r b hb, entry_scale]
  exact congrArg₂ (· * ·) (congrArg₂ (· * ·)
    (Finset.sum_congr rfl fun k _ => xblock_apply m c t r j k b ch hb hc) rfl) rfl

/-- What point t writes back is its block of the pooled array. -/
theorem flushed_eq (c : Dev nD) (t : Fin cfg0.N) :
    (dats m 0 c).flushed 2 t = ((cfg0.win 2).blk t).view.read (Elt Ideal) (result m c) := by
  rw [Value.flushed2]
  obtain ⟨-, -, -, -, -, b0, b1⟩ := idx_facts t
  funext y
  have hy0 : (y 0).val < 32 := (y 0).isLt
  have hy1 : (y 1).val < 128 := (y 1).isLt
  rw [View.read_apply]
  show out0_2 (F := Ideal) (iblk m c 0 t) (iblk m c 1 t) y
    = (result m c : S64x1280.Idx → EReal) (((cfg0.win 2).blk t).view.emb y)
  have hy : (y : S32x128.Idx) = ix2 (⟨(y 0).val, hy0⟩ : Fin 32) (⟨(y 1).val, hy1⟩ : Fin 128) :=
    funext fun a => Fin.ext (by match a with | ⟨0, _⟩ => rfl | ⟨1, _⟩ => rfl)
  have hemb : (((cfg0.win 2).blk t).view.emb y : S64x1280.Idx)
      = ix2 (⟨win0_2.index t (0 : Fin 2) * 32 + (y 0).val, by omega⟩ : Fin 64)
          (⟨win0_2.index t (1 : Fin 2) * 128 + (y 1).val, by omega⟩ : Fin 1280) :=
    funext fun a => Fin.ext (by
      match a with
      | ⟨0, _⟩ => show win0_2.index t (0 : Fin 2) * 32 + 1 * (y 0).val = win0_2.index t (0 : Fin 2) * 32 + (y 0).val; omega
      | ⟨1, _⟩ => show win0_2.index t (1 : Fin 2) * 128 + 1 * (y 1).val = win0_2.index t (1 : Fin 2) * 128 + (y 1).val; omega)
  exact (congrArg (out0_2 (F := Ideal) (iblk m c 0 t) (iblk m c 1 t)) hy).trans
    ((stored_eq m c t _ _ _ _ rfl rfl).trans (congrArg (result m c : S64x1280.Idx → EReal) hemb.symm))

/-- An index of the result array is in point t's block iff each coordinate is in the block's range on its axis. -/
theorem mem_blk (t : Fin cfg0.N) (i : S64x1280.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v19).slice (win0_2.rect t)).set ↔ _
  rw [View.set_slice_whole, Rect.mem_set_unit]
  exact Iff.rfl

/-- Every index of the result array lies in the block of the point with block indices (row / 32, channel / 128). -/
theorem cover (i : S64x1280.Idx) :
    ∃ t : Fin cfg0.N, (cfg0.win 2).flush t = true ∧ i ∈ ((cfg0.win 2).blk t).view.set := by
  have hi0 : (i 0).val < 64 := (i 0).isLt
  have hi1 : (i 1).val < 1280 := (i 1).isLt
  obtain ⟨t, ht⟩ := idx_onto ⟨(i 0).val / 32, by omega⟩ ⟨(i 1).val / 128, by omega⟩
  have q0 : win0_2.index t (0 : Fin 2) = (i 0).val / 32 := congrFun ht 0
  have q1 : win0_2.index t (1 : Fin 2) = (i 1).val / 128 := congrFun ht 1
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 128 ≤ (i 1).val ∧ (i 1).val < win0_2.index t (1 : Fin 2) * 128 + 128
    omega

/-- The result array after the run is the pooled array. -/
theorem final (c : Dev nD) : (dats m 0 c).arrAt 2 cfg0.N = result m c :=
  (dats m 0 c).arrAt_eq_of_cover 2 (result m c) (fun t _ => flushed_eq m c t) cover

/-- Every weakly fair execution of the kernel's program ends with the result array at the pooled array and the
    arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.PoolKernel

end
-- ==== Proof.lean ====
/- The claim: a global average pool over the 32×32 planes of x : [64, 1280, 32, 32], scaled per sample by the softmax of
   eight weights gathered at the sample's index, computed by a 2 × 10 grid of blocks, equals the plain formulation
   mean(x, axes 2 and 3) · scale on the extended reals.

   Both sides compute, at (b, c), (Σ_{k < 1024} x(b, c, k / 32, k % 32)) · (1/1024) · scale(b): one sums the flattened
   plane lane by lane and multiplies by 2⁻¹⁰, the other sums over the two plane axes and divides by 1024 — a quotient by
   1024 is the product with 1/1024 at every extended real, so nothing needs to be finite. The scale column is computed by
   the same host operations on both sides and is never opened. The frames are the runs with the result dropped; the
   idealization rewrote nothing, so it has nothing to preserve. -/
import proofs.«114074_j30305289241063_2_alg».proof.Defs
import proofs.«114074_j30305289241063_2_alg».proof.Proof.Gen.Kernel
import proofs.«114074_j30305289241063_2_alg».proof.Proof.Gen.Kernel.Skeleton
import proofs.«114074_j30305289241063_2_alg».proof.Proof.Gen.Kernel.Launch
import proofs.«114074_j30305289241063_2_alg».proof.Proof.Gen.Kernel.Points
import proofs.«114074_j30305289241063_2_alg».proof.Proof.Gen.Kernel.Frame
import proofs.«114074_j30305289241063_2_alg».proof.Proof.Gen.KernelIdeal
import proofs.«114074_j30305289241063_2_alg».proof.Proof.Gen.KernelIdeal.Skeleton
import proofs.«114074_j30305289241063_2_alg».proof.Proof.Gen.KernelIdeal.Launch
import proofs.«114074_j30305289241063_2_alg».proof.Proof.Gen.KernelIdeal.Points
import proofs.«114074_j30305289241063_2_alg».proof.Proof.Gen.KernelIdeal.Frame
import proofs.«114074_j30305289241063_2_alg».proof.Proof.Gen.ReferenceIdeal
import proofs.«114074_j30305289241063_2_alg».proof.Proof.Gen.Pre_finite_inputs
import proofs.«114074_j30305289241063_2_alg».proof.Proof.Gen.KernelIdeal.Value
import proofs.«114074_j30305289241063_2_alg».proof.Proof.Gen.ReferenceIdeal.Run
import proofs.«114074_j30305289241063_2_alg».proof.Proof.Gen.ReferenceIdeal.Read
import proofs.«114074_j30305289241063_2_alg».proof.Proof.PoolReference
import proofs.«114074_j30305289241063_2_alg».proof.Proof.PoolKernel
import Idealize.ShloMosaic.Adequacy
import Idealize.ShloMosaic.Init

noncomputable section

namespace Cert.Proof

open Idealize.ShloMosaic Idealize.SL.Sem Cert.Kernel

/-- Run from memories that agree on the arguments, the blocked program ends with its result at the pooled array
    (the blocks' write-backs, read as one array) and the plain one at its last stage, which is the pooled array of the
    same arguments. -/
theorem algebraic : Cert.algebraic_KernelIdeal_ReferenceIdeal := by
  intro m ρ m' ρ' _ hagree
  refine ⟨fun c => Cert.PoolKernel.result m c, Cert.PoolKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.PoolReference.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
